-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128x256 .f32) (main_arg6 : FVec F S128x256 .f32) (main_arg7 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128x256 .f32 := Host.absf main_arg6
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S256x128 .f32) (main_arg3 : FVec F S256x128 .f32) (main_arg4 : FVec F S256 .f32) (main_arg5 : FVec F S128x256 .f32) (main_arg6 : FVec F S128x256 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S2000x128 : Shape := ⟨2, ![2000, 128]⟩
abbrev S2000x256 : Shape := ⟨2, ![2000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 70
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256x128, .f32⟩
  | .hbm, ⟨4, _⟩ => ⟨S256, .f32⟩
  | .hbm, ⟨5, _⟩ => ⟨S128x256, .f32⟩
  | .hbm, ⟨6, _⟩ => ⟨S128x256, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S128x256, .f32⟩
  | .hbm, ⟨39, _⟩ => ⟨S128x256, .f32⟩
  | .hbm, ⟨40, _⟩ => ⟨S50000x256, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x256, .f32⟩
  | .hbm, ⟨50, _⟩ => ⟨S_, .f32⟩
  | .hbm, ⟨51, _⟩ => ⟨S50000x256, .f32⟩
  | .hbm, ⟨52, _⟩ => ⟨S800000x1, .i32⟩
  | .hbm, ⟨53, _⟩ => ⟨S50000x256, .f32⟩
  | .hbm, ⟨54, _⟩ => ⟨S_, .f32⟩
  | .hbm, ⟨55, _⟩ => ⟨S800000, .f32⟩
  | .hbm, ⟨56, _⟩ => ⟨S_, .f32⟩
  | .hbm, ⟨57, _⟩ => ⟨S50000, .f32⟩
  | .hbm, ⟨58, _⟩ => ⟨S800000x1, .i32⟩
  | .hbm, ⟨59, _⟩ => ⟨S50000, .f32⟩
  | .hbm, ⟨60, _⟩ => ⟨S_, .f32⟩
  | .hbm, ⟨61, _⟩ => ⟨S_, .f32⟩
  | .hbm, ⟨62, _⟩ => ⟨S50000, .f32⟩
  | .hbm, ⟨63, _⟩ => ⟨S50000, .f32⟩
  | .hbm, ⟨64, _⟩ => ⟨S50000x1, .f32⟩
  | .hbm, ⟨65, _⟩ => ⟨S50000x256, .f32⟩
  | .hbm, ⟨66, _⟩ => ⟨S50000x256, .f32⟩
  | .hbm, ⟨67, _⟩ => ⟨S256x128, .f32⟩
  | .hbm, ⟨68, _⟩ => ⟨S256x128, .f32⟩
  | .hbm, ⟨69, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x128, .f32⟩
  | .local _ .vmem, ⟨14, _⟩ => ⟨S256x128, .f32⟩
  | .local _ .vmem, ⟨15, _⟩ => ⟨S128, .f32⟩
  | .local _ .vmem, ⟨16, _⟩ => ⟨S2000x128, .f32⟩
  | .local _ .vmem, ⟨17, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_call1_v0 : Ref sig .tc := ⟨.hbm, 61, rfl⟩
abbrev main_call1_v1 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x256_S2000x256_1_0_0_1_n_n_wf : DotDims.WF S2000x128 S128x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v21) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S256 : Shape := ⟨1, ![256]⟩
abbrev S128x256 : Shape := ⟨2, ![128, 256]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x256 : Shape := ⟨2, ![50000, 256]⟩
abbrev S1x256 : Shape := ⟨2, ![1, 256]⟩
abbrev S800000x256 : Shape := ⟨2, ![800000, 256]⟩
abbrev S1x128 : Shape := ⟨2, ![1, 128]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S256x128, .f32⟩
  | .hbm, ⟨4, _⟩ => ⟨S256, .f32⟩
  | .hbm, ⟨5, _⟩ => ⟨S128x256, .f32⟩
  | .hbm, ⟨6, _⟩ => ⟨S128x256, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S128x256, .f32⟩
  | .hbm, ⟨39, _⟩ => ⟨S50000x256, .f32⟩
  | .hbm, ⟨40, _⟩ => ⟨S128x256, .f32⟩
  | .hbm, ⟨41, _⟩ => ⟨S50000x256, .f32⟩
  | .hbm, ⟨42, _⟩ => ⟨S50000x256, .f32⟩
  | .hbm, ⟨43, _⟩ => ⟨S1x256, .f32⟩
  | .hbm, ⟨44, _⟩ => ⟨S50000x256, .f32⟩
  | .hbm, ⟨45, _⟩ => ⟨S50000x256, .f32⟩
  | .hbm, ⟨46, _⟩ => ⟨S_, .f32⟩
  | .hbm, ⟨47, _⟩ => ⟨S50000x256, .f32⟩
  | .hbm, ⟨48, _⟩ => ⟨S50000x256, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x256, .f32⟩
  | .hbm, ⟨58, _⟩ => ⟨S_, .f32⟩
  | .hbm, ⟨59, _⟩ => ⟨S50000x256, .f32⟩
  | .hbm, ⟨60, _⟩ => ⟨S800000x1, .i32⟩
  | .hbm, ⟨61, _⟩ => ⟨S50000x256, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x256, .f32⟩
  | .hbm, ⟨74, _⟩ => ⟨S50000x256, .f32⟩
  | .hbm, ⟨75, _⟩ => ⟨S256x128, .f32⟩
  | .hbm, ⟨76, _⟩ => ⟨S50000x128, .f32⟩
  | .hbm, ⟨77, _⟩ => ⟨S256x128, .f32⟩
  | .hbm, ⟨78, _⟩ => ⟨S50000x128, .f32⟩
  | .hbm, ⟨79, _⟩ => ⟨S50000x128, .f32⟩
  | .hbm, ⟨80, _⟩ => ⟨S1x128, .f32⟩
  | .hbm, ⟨81, _⟩ => ⟨S50000x128, .f32⟩
  | .hbm, ⟨82, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call1_cst : Ref sig .tc := ⟨.hbm, 46, rfl⟩
abbrev main_call1_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_call2_v0 : Ref sig .tc := ⟨.hbm, 69, rfl⟩
abbrev main_call2_v1 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S256x128_S128x256_1_0 : S256x128.Transposes [1, 0] S128x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  transposes_S128x256_S256x128_1_0 : S128x256.Transposes [1, 0] S256x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x256_S50000x256_1_0_0_1_n_n_wf : DotDims.WF S50000x128 S128x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.SageLayers.lean ====
/-
  The two linear stages of the network, as functions of whole arrays, entry by entry.

  Each stage takes a table `A` of aggregated neighbour features and the table `X` of the nodes' own features (one row per
  node), two weight matrices already transposed to (input feature) × (output feature), and a bias row, and returns, at
  node `n` and output feature `f`,
      (∑ₖ A[n,k] · Wl[k,f]  +  ∑ₖ X[n,k] · Wr[k,f])  +  b[f],
  the first stage followed by the rectifier `max · 0`. Sums and products are those of the extended reals; the grouping
  of the three summands is the one both programs use, so no law of the extended reals beyond reading each operation at
  an entry is needed to meet them. The rectifier's zero is kept as the 32-bit word both programs print.
-/
import Idealize.ShloMosaic.PureOps.Ideal
import Idealize.ShloMosaic.Lib.ValueIdx

noncomputable section

open scoped BigOperators

namespace Cert.Sage

open Idealize.ShloMosaic Idealize.ShloMosaic.ValueIdx

/-- The first stage: 128 input features to 256 hidden features over 50000 nodes, then the rectifier. -/
def hidden (A X : (⟨2, ![50000, 128]⟩ : Shape).Idx → EReal) (Wl Wr : (⟨2, ![128, 256]⟩ : Shape).Idx → EReal)
    (b : (⟨1, ![256]⟩ : Shape).Idx → EReal) : (⟨2, ![50000, 256]⟩ : Shape).Idx → EReal :=
  fun j => max ((∑ k : Fin 128, A (ix2 (j 0) k) * Wl (ix2 k (j 1)) + ∑ k : Fin 128, X (ix2 (j 0) k) * Wr (ix2 k (j 1)))
    + b (ix1 (j 1))) (Ideal.ofBits .f32 0x00000000#32)

/-- The second stage: 256 hidden features to 128 output features over 50000 nodes, no rectifier. -/
def output (A X : (⟨2, ![50000, 256]⟩ : Shape).Idx → EReal) (Wl Wr : (⟨2, ![256, 128]⟩ : Shape).Idx → EReal)
    (b : (⟨1, ![128]⟩ : Shape).Idx → EReal) : (⟨2, ![50000, 128]⟩ : Shape).Idx → EReal :=
  fun j => (∑ k : Fin 256, A (ix2 (j 0) k) * Wl (ix2 k (j 1)) + ∑ k : Fin 256, X (ix2 (j 0) k) * Wr (ix2 k (j 1)))
    + b (ix1 (j 1))

end Cert.Sage

end
-- ==== Proof.ReferenceStages.lean ====
/-
  The reference's result as ONE function of its eight arguments.

  The reference applies, twice, "mean of the in-neighbours' rows, then a linear stage": the neighbour mean is a gather of
  rows by source node, a scatter-add by destination node, and a division by the in-degree clipped below at 1. Which
  entries those operations read depends on the edge list, but both programs apply the same operations to it, so the
  mean enters only as a function: the reference's own stage for the input features, and for the hidden features the
  same operations applied to an arbitrary table `h` (`mean256`); equal tables have equal means. The two linear stages
  are read entry by entry: each matrix product is a sum over the shared feature axis, the bias is repeated down the
  rows, the rectifier is a maximum with the zero word.
-/
import proofs.«101671_j37752762532479_1_alg».proof.Proof.Gen.ReferenceIdeal.Read
import proofs.«101671_j37752762532479_1_alg».proof.Proof.SageLayers

noncomputable section

open scoped BigOperators

namespace Cert.Sage

open Idealize.ShloMosaic Idealize.ShloMosaic.ValueIdx Cert.ReferenceIdeal Cert.ReferenceIdeal.Read

section AnyFloats
variable {F : FTy → Type} [FloatOps F]

/-- The neighbour mean of a table `h` of 256 hidden features over the edge list `e`: rows gathered at the (wrapped) source
    nodes, summed into the destination nodes, divided by the clipped in-degree — the reference's operations, with the
    table a parameter. -/
def mean256 (h : (⟨S50000x256, .f32⟩ : BufTy).Contents (Elt F)) (e : (⟨S2x800000, .i32⟩ : BufTy).Contents (Elt F)) : (⟨S50000x256, .f32⟩ : BufTy).Contents (Elt F) :=
  Host.divf (Host.scatterAdd scatter_S50000x256_S800000x1_S800000x256_1_0_0_1 (val_main_v38 (F := F)) (val_main_v39 (F := F) e)
    (Host.gather gather_S50000x256_S800000x1_S800000x256_1_0_n_n_0_1_1256 h (val_main_v36 (F := F) e))) (val_main_v47 (F := F) e)

/-- The reference's second neighbour mean is `mean256` of its hidden table. -/
theorem second_mean (x0 : (⟨S50000x128, .f32⟩ : BufTy).Contents (Elt F)) (x1 : (⟨S2x800000, .i32⟩ : BufTy).Contents (Elt F)) (x2 x3 : (⟨S256x128, .f32⟩ : BufTy).Contents (Elt F)) (x4 : (⟨S256, .f32⟩ : BufTy).Contents (Elt F)) :
    val_main_v48 (F := F) x0 x1 x2 x3 x4 = mean256 (val_main_v30 (F := F) x0 x1 x2 x3 x4) x1 := rfl

end AnyFloats

/-- THE NETWORK: the hidden table is the first stage of (the mean of the input features, the input features, the two
    first-layer weights transposed, the first bias); the result is the second stage of (the mean of the hidden table,
    the hidden table, the two second-layer weights transposed, the second bias). -/
def network (x0 : (⟨S50000x128, .f32⟩ : BufTy).Contents (Elt Ideal)) (x1 : (⟨S2x800000, .i32⟩ : BufTy).Contents (Elt Ideal)) (x2 x3 : (⟨S256x128, .f32⟩ : BufTy).Contents (Elt Ideal)) (x4 : (⟨S256, .f32⟩ : BufTy).Contents (Elt Ideal))
    (x5 x6 : (⟨S128x256, .f32⟩ : BufTy).Contents (Elt Ideal)) (x7 : (⟨S128, .f32⟩ : BufTy).Contents (Elt Ideal)) : (⟨S50000x128, .f32⟩ : BufTy).Contents (Elt Ideal) :=
  output (mean256 (hidden (val_main_v21 (F := Ideal) x0 x1) x0 (val_main_v22 (F := Ideal) x2) (val_main_v24 (F := Ideal) x3) x4) x1)
    (hidden (val_main_v21 (F := Ideal) x0 x1) x0 (val_main_v22 (F := Ideal) x2) (val_main_v24 (F := Ideal) x3) x4)
    (val_main_v49 (F := Ideal) x5) (val_main_v51 (F := Ideal) x6) x7

/-- The reference's hidden table is the first stage: its two products are the sums over the 128 input features, its
    bias the row repeated, its rectifier the maximum with the zero word. -/
theorem hidden_stage (x0 : (⟨S50000x128, .f32⟩ : BufTy).Contents (Elt Ideal)) (x1 : (⟨S2x800000, .i32⟩ : BufTy).Contents (Elt Ideal)) (x2 x3 : (⟨S256x128, .f32⟩ : BufTy).Contents (Elt Ideal)) (x4 : (⟨S256, .f32⟩ : BufTy).Contents (Elt Ideal)) :
    val_main_v30 (F := Ideal) x0 x1 x2 x3 x4
      = hidden (val_main_v21 (F := Ideal) x0 x1) x0 (val_main_v22 (F := Ideal) x2) (val_main_v24 (F := Ideal) x3) x4 := by
  funext i
  have el : ∀ k : Fin 128, lidx_main_v23 i k = ix2 (i 0) k := fun k => funext fun a => by
    match a with | ⟨0, _⟩ => rfl | ⟨1, _⟩ => rfl
  have er : ∀ k : Fin 128, ridx_main_v23 i k = ix2 k (i 1) := fun k => funext fun a => by
    match a with | ⟨0, _⟩ => rfl | ⟨1, _⟩ => rfl
  have el' : ∀ k : Fin 128, lidx_main_v25 i k = ix2 (i 0) k := fun k => funext fun a => by
    match a with | ⟨0, _⟩ => rfl | ⟨1, _⟩ => rfl
  have er' : ∀ k : Fin 128, ridx_main_v25 i k = ix2 k (i 1) := fun k => funext fun a => by
    match a with | ⟨0, _⟩ => rfl | ⟨1, _⟩ => rfl
  have eb : idx_main_v27 (idx_main_v28 i) = ix1 (i 1) := funext fun a => by
    match a with | ⟨0, _⟩ => rfl
  rw [val_main_v30_apply, val_main_v29_apply, val_main_v26_apply, val_main_v23_apply, val_main_v25_apply, val_main_v28_apply,
    val_main_v27_apply, val_main_call1_v0_apply, val_main_call1_cst_apply]
  simp only [el, er, el', er', eb]
  rfl

/-- The reference's result is the second stage of its second mean and its hidden table. -/
theorem output_stage (x0 : (⟨S50000x128, .f32⟩ : BufTy).Contents (Elt Ideal)) (x1 : (⟨S2x800000, .i32⟩ : BufTy).Contents (Elt Ideal)) (x2 x3 : (⟨S256x128, .f32⟩ : BufTy).Contents (Elt Ideal)) (x4 : (⟨S256, .f32⟩ : BufTy).Contents (Elt Ideal))
    (x5 x6 : (⟨S128x256, .f32⟩ : BufTy).Contents (Elt Ideal)) (x7 : (⟨S128, .f32⟩ : BufTy).Contents (Elt Ideal)) :
    val_main_v56 (F := Ideal) x0 x1 x2 x3 x4 x5 x6 x7
      = output (val_main_v48 (F := Ideal) x0 x1 x2 x3 x4) (val_main_v30 (F := Ideal) x0 x1 x2 x3 x4)
          (val_main_v49 (F := Ideal) x5) (val_main_v51 (F := Ideal) x6) x7 := by
  funext i
  have el : ∀ k : Fin 256, lidx_main_v50 i k = ix2 (i 0) k := fun k => funext fun a => by
    match a with | ⟨0, _⟩ => rfl | ⟨1, _⟩ => rfl
  have er : ∀ k : Fin 256, ridx_main_v50 i k = ix2 k (i 1) := fun k => funext fun a => by
    match a with | ⟨0, _⟩ => rfl | ⟨1, _⟩ => rfl
  have el' : ∀ k : Fin 256, lidx_main_v52 i k = ix2 (i 0) k := fun k => funext fun a => by
    match a with | ⟨0, _⟩ => rfl | ⟨1, _⟩ => rfl
  have er' : ∀ k : Fin 256, ridx_main_v52 i k = ix2 k (i 1) := fun k => funext fun a => by
    match a with | ⟨0, _⟩ => rfl | ⟨1, _⟩ => rfl
  have eb : idx_main_v54 (idx_main_v55 i) = ix1 (i 1) := funext fun a => by
    match a with | ⟨0, _⟩ => rfl
  rw [val_main_v56_apply, val_main_v53_apply, val_main_v50_apply, val_main_v52_apply, val_main_v55_apply, val_main_v54_apply]
  simp only [el, er, el', er', eb]
  rfl

/-- THE REFERENCE'S RESULT IS THE NETWORK of its arguments. -/
theorem reference_is_network (x0 : (⟨S50000x128, .f32⟩ : BufTy).Contents (Elt Ideal)) (x1 : (⟨S2x800000, .i32⟩ : BufTy).Contents (Elt Ideal)) (x2 x3 : (⟨S256x128, .f32⟩ : BufTy).Contents (Elt Ideal)) (x4 : (⟨S256, .f32⟩ : BufTy).Contents (Elt Ideal))
    (x5 x6 : (⟨S128x256, .f32⟩ : BufTy).Contents (Elt Ideal)) (x7 : (⟨S128, .f32⟩ : BufTy).Contents (Elt Ideal)) :
    val_main_v56 (F := Ideal) x0 x1 x2 x3 x4 x5 x6 x7 = network x0 x1 x2 x3 x4 x5 x6 x7 := by
  rw [output_stage, second_mean, hidden_stage]
  rfl

end Cert.Sage

end
-- ==== Proof.KernelWholeRun.lean ====
/-
  The idealized kernel's whole run with its RESULT kept. The program is eight segments: three stretches of host
  operations (the first neighbour mean and the two weight transposes), the first row-tiled linear layer, three more
  stretches (the second neighbour mean, on the first layer's output), the second linear layer. The launch theorem for
  programs of several regions takes the segments and the contents of every unscoped buffer at each boundary, and ends
  with every unscoped buffer holding the last boundary's contents `W8`; read at the result buffer that is the result,
  and read at the eight argument buffers it is the launch memory.
-/
import proofs.«101671_j37752762532479_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's @main terminates without a fault; the result buffer ends at the last
    boundary's contents, and the argument buffers as launched. -/
theorem run_result : θ_run defs (onTc (τ := τ) (main (F := F))) ⟨m, fun _ => 0, ρ⟩ (fun r => ∀ c : Dev nD,
      r.2.mem ((c.tc : Thread nD τ).loc main_v45) = W8 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v45 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Whole

end
-- ==== Proof.KernelBodies.lean ====
/-
  The two kernel bodies read at one entry of the block they store.

  Each body loads two blocks of 2000 node rows (aggregated and own features), two whole weight matrices and a bias row,
  rounds the four matrices to a 16-bit format (the identity on extended reals), forms two matrix products each
  accumulated into zero, adds them, adds the bias repeated down the rows, and — in the first stage — takes the maximum
  with zero. A matrix product into zero read at (p, q) is the plain sum over the shared axis; the dimension numbers
  contract the left operand's columns with the right operand's rows.
-/
import proofs.«101671_j37752762532479_1_alg».proof.Proof.Gen.KernelIdeal.Skeleton
import proofs.«101671_j37752762532479_1_alg».proof.Proof.SageLayers
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Idealize.ShloMosaic Idealize.ShloMosaic.ValueIdx Cert.KernelIdeal Cert.KernelIdeal.Gen

/-! ## The first stage's body: a block of 2000 rows, 128 features in, 256 out -/

/-- The left operand's coordinates in the matrix product: the row is the output's row. -/
theorem lhs0_row (i : S2000x256.Idx) (r : dot_S2000x128_S128x256_S2000x256_1_0_0_1_n_n.contr.Idx) : (dot_S2000x128_S128x256_S2000x256_1_0_0_1_n_n.lhsIdx i r 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
/-- … and the column is the summation index. -/
theorem lhs0_col (i : S2000x256.Idx) (r : dot_S2000x128_S128x256_S2000x256_1_0_0_1_n_n.contr.Idx) : (dot_S2000x128_S128x256_S2000x256_1_0_0_1_n_n.lhsIdx i r 1).val = (r ⟨0, by decide⟩).val :=
  dot_S2000x128_S128x256_S2000x256_1_0_0_1_n_n.lhsIdx_val_of_single rfl i r
/-- The right operand's row is the summation index. -/
theorem rhs0_row (i : S2000x256.Idx) (r : dot_S2000x128_S128x256_S2000x256_1_0_0_1_n_n.contr.Idx) : (dot_S2000x128_S128x256_S2000x256_1_0_0_1_n_n.rhsIdx i r 0).val = (r ⟨0, by decide⟩).val :=
  dot_S2000x128_S128x256_S2000x256_1_0_0_1_n_n.rhsIdx_val_of_single rfl i r
/-- … and its column the output's column. -/
theorem rhs0_col (i : S2000x256.Idx) (r : dot_S2000x128_S128x256_S2000x256_1_0_0_1_n_n.contr.Idx) : (dot_S2000x128_S128x256_S2000x256_1_0_0_1_n_n.rhsIdx i r 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- A [2000,128] × [128,256] matrix product accumulated into zero, at row `p` and column `q`: the sum over the 128 shared
    features of the row's entry times the column's. -/
theorem product0_apply (a : FVec Ideal S2000x128 .bf16) (w : FVec Ideal S128x256 .bf16) (p : Fin 2000) (q : Fin 256) :
    matmul dot_S2000x128_S128x256_S2000x256_1_0_0_1_n_n none a w (constant (F := Ideal) S2000x256 .f32 0x00000000#32) (ix2 p q)
      = ∑ k : Fin 128, a (ix2 p k) * w (ix2 k q) := by
  simp only [matmul]
  rw [Ideal.matmul_constant_zero_apply, ← Equiv.sum_comp (contrEquiv1 dot_S2000x128_S128x256_S2000x256_1_0_0_1_n_n 128 rfl rfl).symm]
  refine Finset.sum_congr rfl fun k _ => ?_
  have hk := contrEquiv1_symm_val dot_S2000x128_S128x256_S2000x256_1_0_0_1_n_n 128 rfl rfl k
  have el : dot_S2000x128_S128x256_S2000x256_1_0_0_1_n_n.lhsIdx (ix2 p q) ((contrEquiv1 dot_S2000x128_S128x256_S2000x256_1_0_0_1_n_n 128 rfl rfl).symm k) = ix2 p k := funext fun a => Fin.ext (by
    match a with
    | ⟨0, _⟩ => exact lhs0_row _ _
    | ⟨1, _⟩ => exact (lhs0_col _ _).trans hk)
  have er : dot_S2000x128_S128x256_S2000x256_1_0_0_1_n_n.rhsIdx (ix2 p q) ((contrEquiv1 dot_S2000x128_S128x256_S2000x256_1_0_0_1_n_n 128 rfl rfl).symm k) = ix2 k q := funext fun a => Fin.ext (by
    match a with
    | ⟨0, _⟩ => exact (rhs0_row _ _).trans hk
    | ⟨1, _⟩ => exact rhs0_col _ _)
  rw [el, er]

/-- The bias row, laid out as a [1,256] row and repeated down the 2000 rows, read at (p, q): the bias at q. -/
theorem bias0_apply (b : Vec Ideal S256 .f32) (p : Fin 2000) (q : Fin 256) :
    broadcastTo S2000x256 (shapeCast S1x256 b shapeCasts_S256_S1x256) broadcasts_S1x256_S2000x256 (ix2 p q) = b (ix1 q) :=
  (broadcastTo_1b_ab_apply _ broadcasts_S1x256_S2000x256 p q).trans (shapeCast_a_1a_apply b shapeCasts_S256_S1x256 0 q)

/-- THE BODY AT AN ENTRY. From the two row blocks `x0` (aggregated) and `x1` (own), the two weight matrices `x2`, `x3` and
    the bias `x4`, the value stored at row `p`, column `q` of the output block: the two products' sums, added, plus the
    bias, then the rectifier. The roundings to the 16-bit format on the way into the products are the identity on extended reals. -/
theorem body0_apply (x0 x1 : Vec Ideal S2000x128 .f32) (x2 x3 : Vec Ideal S128x256 .f32) (x4 : Vec Ideal S256 .f32)
    (p : Fin 2000) (q : Fin 256) :
    k0_pay1 (F := Ideal) x0 x1 x2 x3 x4 (ix2 p q)
      = max ((∑ k : Fin 128, x0 (ix2 p k) * x2 (ix2 k q) + ∑ k : Fin 128, x1 (ix2 p k) * x3 (ix2 k q)) + x4 (ix1 q)) (Ideal.ofBits .f32 0x00000000#32) := by
  unfold k0_pay1
  rw [shapeCast_self, shapeCast_self, shapeCast_self]
  rw [maximumf_apply, addf_apply, addf_apply, product0_apply, product0_apply, bias0_apply]
  rfl

/-! ## The second stage's body: a block of 2000 rows, 256 features in, 128 out -/

/-- The left operand's coordinates in the matrix product: the row is the output's row. -/
theorem lhs1_row (i : S2000x128.Idx) (r : dot_S2000x256_S256x128_S2000x128_1_0_0_1_n_n.contr.Idx) : (dot_S2000x256_S256x128_S2000x128_1_0_0_1_n_n.lhsIdx i r 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
/-- … and the column is the summation index. -/
theorem lhs1_col (i : S2000x128.Idx) (r : dot_S2000x256_S256x128_S2000x128_1_0_0_1_n_n.contr.Idx) : (dot_S2000x256_S256x128_S2000x128_1_0_0_1_n_n.lhsIdx i r 1).val = (r ⟨0, by decide⟩).val :=
  dot_S2000x256_S256x128_S2000x128_1_0_0_1_n_n.lhsIdx_val_of_single rfl i r
/-- The right operand's row is the summation index. -/
theorem rhs1_row (i : S2000x128.Idx) (r : dot_S2000x256_S256x128_S2000x128_1_0_0_1_n_n.contr.Idx) : (dot_S2000x256_S256x128_S2000x128_1_0_0_1_n_n.rhsIdx i r 0).val = (r ⟨0, by decide⟩).val :=
  dot_S2000x256_S256x128_S2000x128_1_0_0_1_n_n.rhsIdx_val_of_single rfl i r
/-- … and its column the output's column. -/
theorem rhs1_col (i : S2000x128.Idx) (r : dot_S2000x256_S256x128_S2000x128_1_0_0_1_n_n.contr.Idx) : (dot_S2000x256_S256x128_S2000x128_1_0_0_1_n_n.rhsIdx i r 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- A [2000,256] × [256,128] matrix product accumulated into zero, at row `p` and column `q`: the sum over the 256 shared
    features of the row's entry times the column's. -/
theorem product1_apply (a : FVec Ideal S2000x256 .bf16) (w : FVec Ideal S256x128 .bf16) (p : Fin 2000) (q : Fin 128) :
    matmul dot_S2000x256_S256x128_S2000x128_1_0_0_1_n_n none a w (constant (F := Ideal) S2000x128 .f32 0x00000000#32) (ix2 p q)
      = ∑ k : Fin 256, a (ix2 p k) * w (ix2 k q) := by
  simp only [matmul]
  rw [Ideal.matmul_constant_zero_apply, ← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact lhs1_row _ _
    | ⟨1, _⟩ => exact (lhs1_col _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (rhs1_row _ _).trans hk
    | ⟨1, _⟩ => exact rhs1_col _ _)
  rw [el, er]

/-- The bias row, laid out as a [1,128] row and repeated down the 2000 rows, read at (p, q): the bias at q. -/
theorem bias1_apply (b : Vec Ideal S128 .f32) (p : Fin 2000) (q : Fin 128) :
    broadcastTo S2000x128 (shapeCast S1x128 b shapeCasts_S128_S1x128) broadcasts_S1x128_S2000x128 (ix2 p q) = b (ix1 q) :=
  (broadcastTo_1b_ab_apply _ broadcasts_S1x128_S2000x128 p q).trans (shapeCast_a_1a_apply b shapeCasts_S128_S1x128 0 q)

/-- THE BODY AT AN ENTRY. From the two row blocks `x0` (aggregated) and `x1` (own), the two weight matrices `x2`, `x3` and
    the bias `x4`, the value stored at row `p`, column `q` of the output block: the two products' sums, added, plus the
    bias. The roundings to the 16-bit format on the way into the products are the identity on extended reals. -/
theorem body1_apply (x0 x1 : Vec Ideal S2000x256 .f32) (x2 x3 : Vec Ideal S256x128 .f32) (x4 : Vec Ideal S128 .f32)
    (p : Fin 2000) (q : Fin 128) :
    k1_pay1 (F := Ideal) x0 x1 x2 x3 x4 (ix2 p q)
      = (∑ k : Fin 256, x0 (ix2 p k) * x2 (ix2 k q) + ∑ k : Fin 256, x1 (ix2 p k) * x3 (ix2 k q)) + x4 (ix1 q) := by
  unfold k1_pay1
  rw [shapeCast_self, shapeCast_self, shapeCast_self, shapeCast_self]
  rw [addf_apply, addf_apply, product1_apply, product1_apply, bias1_apply]
  rfl

/-- The first stage's block entry as an entry of the whole-array stage: when the loaded blocks are the rows of `A` and `X` that
    entry `i` reads, the weights are read where `i`'s column says, and the bias at `i`'s column, the value stored at (p, q)
    is the stage at `i`. -/
theorem hidden_tile (A X : S50000x128.Idx → EReal) (Wl Wr : S128x256.Idx → EReal) (b : S256.Idx → EReal)
    (x0 x1 : Vec Ideal S2000x128 .f32) (x2 x3 : Vec Ideal S128x256 .f32) (x4 : Vec Ideal S256 .f32)
    (p : Fin 2000) (q : Fin 256) (i : S50000x256.Idx)
    (h0 : ∀ k : Fin 128, x0 (ix2 p k) = A (ix2 (i 0) k)) (h1 : ∀ k : Fin 128, x1 (ix2 p k) = X (ix2 (i 0) k))
    (h2 : ∀ k : Fin 128, x2 (ix2 k q) = Wl (ix2 k (i 1))) (h3 : ∀ k : Fin 128, x3 (ix2 k q) = Wr (ix2 k (i 1)))
    (h4 : x4 (ix1 q) = b (ix1 (i 1))) :
    k0_pay1 (F := Ideal) x0 x1 x2 x3 x4 (ix2 p q) = Sage.hidden A X Wl Wr b i := by
  rw [body0_apply]
  unfold Sage.hidden
  simp only [h0, h1, h2, h3, h4]

/-- The second stage's block entry as an entry of the whole-array stage: when the loaded blocks are the rows of `A` and `X` that
    entry `i` reads, the weights are read where `i`'s column says, and the bias at `i`'s column, the value stored at (p, q)
    is the stage at `i`. -/
theorem output_tile (A X : S50000x256.Idx → EReal) (Wl Wr : S256x128.Idx → EReal) (b : S128.Idx → EReal)
    (x0 x1 : Vec Ideal S2000x256 .f32) (x2 x3 : Vec Ideal S256x128 .f32) (x4 : Vec Ideal S128 .f32)
    (p : Fin 2000) (q : Fin 128) (i : S50000x128.Idx)
    (h0 : ∀ k : Fin 256, x0 (ix2 p k) = A (ix2 (i 0) k)) (h1 : ∀ k : Fin 256, x1 (ix2 p k) = X (ix2 (i 0) k))
    (h2 : ∀ k : Fin 256, x2 (ix2 k q) = Wl (ix2 k (i 1))) (h3 : ∀ k : Fin 256, x3 (ix2 k q) = Wr (ix2 k (i 1)))
    (h4 : x4 (ix1 q) = b (ix1 (i 1))) :
    k1_pay1 (F := Ideal) x0 x1 x2 x3 x4 (ix2 p q) = Sage.output A X Wl Wr b i := by
  rw [body1_apply]
  unfold Sage.output
  simp only [h0, h1, h2, h3, h4]

end Cert.KernelIdeal.Body

end
-- ==== Proof.KernelHiddenTiles.lean ====
/-
  The first stage's region, from blocks to the whole array.

  The grid has 25 points; at point t the two row windows hold rows 2000·t … 2000·t+1999 of their tables, the weight and
  bias windows hold their whole arrays, and the output window's block is rows 2000·t … 2000·t+1999 of the result. So
  what point t writes back is block t of ONE function of the arrays as the region finds them — the whole-array
  stage — and since the 25 blocks tile the 50000 rows, the result array ends as that function everywhere.
-/
import proofs.«101671_j37752762532479_1_alg».proof.Proof.Gen.KernelIdeal.Frame
import proofs.«101671_j37752762532479_1_alg».proof.Proof.KernelBodies
import proofs.«101671_j37752762532479_1_alg».proof.Proof.SageLayers
import Idealize.ShloMosaic.Lib.Pipeline.Value
import Idealize.ShloMosaic.Lib.ValueIdx

set_option maxRecDepth 16384

noncomputable section

namespace Cert.KernelIdeal.Tiles0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided once over the grid: the two row windows move with the output window along the rows
    and sit at column block 0; the weight and bias windows never move; the output's row block is at most 24. -/
theorem steps : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 ∧ win0_5.index t (0 : Fin 2) ≤ 24 :=
  (by decide +kernel : ∀ t : Fin grid0.N, _)

/-- Every one of the 25 row blocks is some point's. -/
theorem point_of_block : ∀ r : Fin 25, ∃ t : Fin cfg0.N, win0_5.index t = ![r.val, 0] :=
  (by decide +kernel : ∀ r : Fin 25, ∃ t : Fin grid0.N, win0_5.index t = ![r.val, 0])

/-- WHAT POINT `t` WRITES BACK is block `t` of the stage applied to the arrays as the region finds them. -/
theorem written (c : Dev nD) (t : Fin cfg0.N) :
    (dat0 V c).flushed 5 t = ((cfg0.win 5).blk t).view.read (Elt Ideal) (Sage.hidden (V c main_v21) (V c main_arg0) (V c main_v22) (V c main_v23) (V c main_arg4)) := by
  show (cfg0.win 5).cut (grid0.coords t) ((dat0 V c).after 5 t) = _
  rw [after0_5]
  unfold out0_5
  rw [View.canon_unit_zero zeros2]
  simp only [View.ld_unit_zero (S := S2000x128) zeros2, View.ld_unit_zero (S := S128x256) zeros2, View.ld_unit_zero (S := S256) zeros1]
  obtain ⟨e00, e01, e10, e11, e20, e21, e30, e31, e40, e51, e50⟩ := steps t
  funext j
  obtain ⟨p, q, rfl⟩ : ∃ (p : Fin 2000) (q : Fin 256), j = ix2 p q := ⟨j 0, j 1, eq_ix2 j⟩
  refine Body.hidden_tile (V c main_v21) (V c main_arg0) (V c main_v22) (V c main_v23) (V c main_arg4)
    (iblk0 V c 0 t) (iblk0 V c 1 t) (iblk0 V c 2 t) (iblk0 V c 3 t) (iblk0 V c 4 t) p q
    (((cfg0.win 5).blk t).view.emb (ix2 p q)) (fun k => ?_) (fun k => ?_) (fun k => ?_) (fun k => ?_) ?_
  · -- the aggregated rows
    show V c main_v21 (((cfg0.win 0).blk t).view.emb (ix2 p k)) = V c main_v21 (ix2 ((((cfg0.win 5).blk t).view.emb (ix2 p q)) 0) k)
    refine congrArg _ (funext fun a => Fin.ext ?_)
    match a with
    | ⟨0, _⟩ => show win0_0.index t (0 : Fin 2) * 2000 + 1 * p.val = win0_5.index t (0 : Fin 2) * 2000 + 1 * p.val; omega
    | ⟨1, _⟩ => show win0_0.index t (1 : Fin 2) * 128 + 1 * k.val = k.val; omega
  · -- the nodes' own rows
    show V c main_arg0 (((cfg0.win 1).blk t).view.emb (ix2 p k)) = V c main_arg0 (ix2 ((((cfg0.win 5).blk t).view.emb (ix2 p q)) 0) k)
    refine congrArg _ (funext fun a => Fin.ext ?_)
    match a with
    | ⟨0, _⟩ => show win0_1.index t (0 : Fin 2) * 2000 + 1 * p.val = win0_5.index t (0 : Fin 2) * 2000 + 1 * p.val; omega
    | ⟨1, _⟩ => show win0_1.index t (1 : Fin 2) * 128 + 1 * k.val = k.val; omega
  · -- the left weights
    show V c main_v22 (((cfg0.win 2).blk t).view.emb (ix2 k q)) = V c main_v22 (ix2 k ((((cfg0.win 5).blk t).view.emb (ix2 p q)) 1))
    refine congrArg _ (funext fun a => Fin.ext ?_)
    match a with
    | ⟨0, _⟩ => show win0_2.index t (0 : Fin 2) * 128 + 1 * k.val = k.val; omega
    | ⟨1, _⟩ => show win0_2.index t (1 : Fin 2) * 256 + 1 * q.val = win0_5.index t (1 : Fin 2) * 256 + 1 * q.val; omega
  · -- the right weights
    show V c main_v23 (((cfg0.win 3).blk t).view.emb (ix2 k q)) = V c main_v23 (ix2 k ((((cfg0.win 5).blk t).view.emb (ix2 p q)) 1))
    refine congrArg _ (funext fun a => Fin.ext ?_)
    match a with
    | ⟨0, _⟩ => show win0_3.index t (0 : Fin 2) * 128 + 1 * k.val = k.val; omega
    | ⟨1, _⟩ => show win0_3.index t (1 : Fin 2) * 256 + 1 * q.val = win0_5.index t (1 : Fin 2) * 256 + 1 * q.val; omega
  · -- the bias
    show V c main_arg4 (((cfg0.win 4).blk t).view.emb (ix1 q)) = V c main_arg4 (ix1 ((((cfg0.win 5).blk t).view.emb (ix2 p q)) 1))
    refine congrArg _ (funext fun a => Fin.ext ?_)
    match a with
    | ⟨0, _⟩ => show win0_4.index t (0 : Fin 1) * 256 + 1 * q.val = win0_5.index t (1 : Fin 2) * 256 + 1 * q.val; omega

/-- An entry of the result array is in point `t`'s block iff each coordinate is in the block's range on its axis. -/
theorem in_block (t : Fin cfg0.N) (i : S50000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v24).slice (win0_5.rect t)).set ↔ _
  rw [View.set_slice_whole, Rect.mem_set_unit]
  exact Iff.rfl

/-- The 25 blocks of 2000 rows tile the 50000 rows: row r is in block r / 2000. -/
theorem blocks_cover (i : S50000x256.Idx) : ∃ t : Fin cfg0.N, (cfg0.win 5).flush t = true ∧ i ∈ ((cfg0.win 5).blk t).view.set := by
  have hi0 : (i 0).val < 50000 := (i 0).isLt
  have hi1 : (i 1).val < 256 := (i 1).isLt
  obtain ⟨t, ht⟩ := point_of_block ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [in_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 256 ≤ (i 1).val ∧ (i 1).val < win0_5.index t (1 : Fin 2) * 256 + 256; omega

/-- THE RESULT ARRAY after the region: the stage applied to the arrays as the region finds them. -/
theorem array (c : Dev nD) : (dat0 V c).arrAt 5 cfg0.N = Sage.hidden (V c main_v21) (V c main_arg0) (V c main_v22) (V c main_v23) (V c main_arg4) :=
  (dat0 V c).arrAt_eq_of_cover 5 _ (fun t _ => written V c t) blocks_cover

end Cert.KernelIdeal.Tiles0

end
-- ==== Proof.KernelOutputTiles.lean ====
/-
  The second stage's region, from blocks to the whole array.

  The grid has 25 points; at point t the two row windows hold rows 2000·t … 2000·t+1999 of their tables, the weight and
  bias windows hold their whole arrays, and the output window's block is rows 2000·t … 2000·t+1999 of the result. So
  what point t writes back is block t of ONE function of the arrays as the region finds them — the whole-array
  stage — and since the 25 blocks tile the 50000 rows, the result array ends as that function everywhere.
-/
import proofs.«101671_j37752762532479_1_alg».proof.Proof.Gen.KernelIdeal.Frame
import proofs.«101671_j37752762532479_1_alg».proof.Proof.KernelBodies
import proofs.«101671_j37752762532479_1_alg».proof.Proof.SageLayers
import Idealize.ShloMosaic.Lib.Pipeline.Value
import Idealize.ShloMosaic.Lib.ValueIdx

set_option maxRecDepth 16384

noncomputable section

namespace Cert.KernelIdeal.Tiles1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a <;> rfl

/-- The printed index maps, decided once over the grid: the two row windows move with the output window along the rows
    and sit at column block 0; the weight and bias windows never move; the output's row block is at most 24. -/
theorem steps : ∀ t : Fin cfg1.N,
    win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (1 : Fin 2) = 0 ∧ win1_5.index t (0 : Fin 2) ≤ 24 :=
  (by decide +kernel : ∀ t : Fin grid1.N, _)

/-- Every one of the 25 row blocks is some point's. -/
theorem point_of_block : ∀ r : Fin 25, ∃ t : Fin cfg1.N, win1_5.index t = ![r.val, 0] :=
  (by decide +kernel : ∀ r : Fin 25, ∃ t : Fin grid1.N, win1_5.index t = ![r.val, 0])

/-- WHAT POINT `t` WRITES BACK is block `t` of the stage applied to the arrays as the region finds them. -/
theorem written (c : Dev nD) (t : Fin cfg1.N) :
    (dat1 V c).flushed 5 t = ((cfg1.win 5).blk t).view.read (Elt Ideal) (Sage.output (V c main_v42) (V c main_v24) (V c main_v43) (V c main_v44) (V c main_arg7)) := by
  show (cfg1.win 5).cut (grid1.coords t) ((dat1 V c).after 5 t) = _
  rw [after1_5]
  unfold out1_5
  rw [View.canon_unit_zero zeros2]
  simp only [View.ld_unit_zero (S := S2000x256) zeros2, View.ld_unit_zero (S := S256x128) zeros2, View.ld_unit_zero (S := S128) zeros1]
  obtain ⟨e00, e01, e10, e11, e20, e21, e30, e31, e40, e51, e50⟩ := steps t
  funext j
  obtain ⟨p, q, rfl⟩ : ∃ (p : Fin 2000) (q : Fin 128), j = ix2 p q := ⟨j 0, j 1, eq_ix2 j⟩
  refine Body.output_tile (V c main_v42) (V c main_v24) (V c main_v43) (V c main_v44) (V c main_arg7)
    (iblk1 V c 0 t) (iblk1 V c 1 t) (iblk1 V c 2 t) (iblk1 V c 3 t) (iblk1 V c 4 t) p q
    (((cfg1.win 5).blk t).view.emb (ix2 p q)) (fun k => ?_) (fun k => ?_) (fun k => ?_) (fun k => ?_) ?_
  · -- the aggregated rows
    show V c main_v42 (((cfg1.win 0).blk t).view.emb (ix2 p k)) = V c main_v42 (ix2 ((((cfg1.win 5).blk t).view.emb (ix2 p q)) 0) k)
    refine congrArg _ (funext fun a => Fin.ext ?_)
    match a with
    | ⟨0, _⟩ => show win1_0.index t (0 : Fin 2) * 2000 + 1 * p.val = win1_5.index t (0 : Fin 2) * 2000 + 1 * p.val; omega
    | ⟨1, _⟩ => show win1_0.index t (1 : Fin 2) * 256 + 1 * k.val = k.val; omega
  · -- the nodes' own rows
    show V c main_v24 (((cfg1.win 1).blk t).view.emb (ix2 p k)) = V c main_v24 (ix2 ((((cfg1.win 5).blk t).view.emb (ix2 p q)) 0) k)
    refine congrArg _ (funext fun a => Fin.ext ?_)
    match a with
    | ⟨0, _⟩ => show win1_1.index t (0 : Fin 2) * 2000 + 1 * p.val = win1_5.index t (0 : Fin 2) * 2000 + 1 * p.val; omega
    | ⟨1, _⟩ => show win1_1.index t (1 : Fin 2) * 256 + 1 * k.val = k.val; omega
  · -- the left weights
    show V c main_v43 (((cfg1.win 2).blk t).view.emb (ix2 k q)) = V c main_v43 (ix2 k ((((cfg1.win 5).blk t).view.emb (ix2 p q)) 1))
    refine congrArg _ (funext fun a => Fin.ext ?_)
    match a with
    | ⟨0, _⟩ => show win1_2.index t (0 : Fin 2) * 256 + 1 * k.val = k.val; omega
    | ⟨1, _⟩ => show win1_2.index t (1 : Fin 2) * 128 + 1 * q.val = win1_5.index t (1 : Fin 2) * 128 + 1 * q.val; omega
  · -- the right weights
    show V c main_v44 (((cfg1.win 3).blk t).view.emb (ix2 k q)) = V c main_v44 (ix2 k ((((cfg1.win 5).blk t).view.emb (ix2 p q)) 1))
    refine congrArg _ (funext fun a => Fin.ext ?_)
    match a with
    | ⟨0, _⟩ => show win1_3.index t (0 : Fin 2) * 256 + 1 * k.val = k.val; omega
    | ⟨1, _⟩ => show win1_3.index t (1 : Fin 2) * 128 + 1 * q.val = win1_5.index t (1 : Fin 2) * 128 + 1 * q.val; omega
  · -- the bias
    show V c main_arg7 (((cfg1.win 4).blk t).view.emb (ix1 q)) = V c main_arg7 (ix1 ((((cfg1.win 5).blk t).view.emb (ix2 p q)) 1))
    refine congrArg _ (funext fun a => Fin.ext ?_)
    match a with
    | ⟨0, _⟩ => show win1_4.index t (0 : Fin 1) * 128 + 1 * q.val = win1_5.index t (1 : Fin 2) * 128 + 1 * q.val; omega

/-- An entry of the result array is in point `t`'s block iff each coordinate is in the block's range on its axis. -/
theorem in_block (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v45).slice (win1_5.rect t)).set ↔ _
  rw [View.set_slice_whole, Rect.mem_set_unit]
  exact Iff.rfl

/-- The 25 blocks of 2000 rows tile the 50000 rows: row r is in block r / 2000. -/
theorem blocks_cover (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ := point_of_block ⟨(i 0).val / 2000, by omega⟩
  have q0 : win1_5.index t (0 : Fin 2) = (i 0).val / 2000 := congrFun ht 0
  have q1 : win1_5.index t (1 : Fin 2) = 0 := congrFun ht 1
  refine ⟨t, flush1_5 t, ?_⟩
  rw [in_block]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- THE RESULT ARRAY after the region: the stage applied to the arrays as the region finds them. -/
theorem array (c : Dev nD) : (dat1 V c).arrAt 5 cfg1.N = Sage.output (V c main_v42) (V c main_v24) (V c main_v43) (V c main_v44) (V c main_arg7) :=
  (dat1 V c).arrAt_eq_of_cover 5 _ (fun t _ => written V c t) blocks_cover

end Cert.KernelIdeal.Tiles1

end
-- ==== Proof.LibTypedRefCasts.lean ====
/-
  A typed buffer reference carries the type T of the value it holds together with a proof that the buffer's
  own type is T; contents are moved between the two spellings of that one type along the proof. Moving a
  value to the buffer's spelling and back again gives the value: the two moves are transports along a
  proof and along its inverse.
-/
import Idealize.ShloMosaic.Lib.StableHlo.Run

namespace Cert.LibTypedRefCasts

open Idealize.ShloMosaic Idealize.ShloMosaic.StableHlo

variable {sig : RefSig} {Val : EltTy → Type} {T : BufTy}

/-- Contents written at a typed reference and read back through it are unchanged. -/
theorem ofBuf_toBuf (x : TRef sig T) (v : T.Contents Val) : x.ofBuf (x.toBuf v) = v := by
  simp only [TRef.ofBuf, TRef.toBuf, cast_cast, cast_eq]

/-- Contents read through a typed reference and written back through it are unchanged. -/
theorem toBuf_ofBuf (x : TRef sig T) (v : x.ref.ty.Contents Val) : x.toBuf (x.ofBuf v) = v := by
  simp only [TRef.ofBuf, TRef.toBuf, cast_cast, cast_eq]

end Cert.LibTypedRefCasts
-- ==== Proof.KernelStretches.lean ====
/-
  The kernel's host operations before the first region, read back at the buffers that region takes.

  The program first computes the neighbour mean of the input features — source and destination node lists cut from the
  edge list, rows gathered and summed by destination, the in-degree counted the same way, clipped below at 1 by an
  outlined function, spread over the feature axis, and divided — and transposes the two first-layer weight matrices.
  These are, operation for operation, the reference's own host operations, so each buffer's contents is the reference's
  stage function of the launch contents. The clip is three operations on typed references: each moves a value along a
  proof that two spellings of one buffer type agree, so moving there and back is the identity, and what the three
  compute — the maximum of the constant spread over the nodes and the in-degree — is the same function of the contents
  before them whatever those contents are.
-/
import proofs.«101671_j37752762532479_1_alg».proof.Proof.Gen.KernelIdeal.Frame
import proofs.«101671_j37752762532479_1_alg».proof.Proof.ReferenceStages
import proofs.«101671_j37752762532479_1_alg».proof.Proof.LibTypedRefCasts
import Idealize.ShloMosaic.Lib.StableHlo.Run

set_option maxRecDepth 16384
set_option Elab.async false

noncomputable section

namespace Cert.KernelIdeal.Stretches

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The first neighbour mean, stretch by stretch -/

/-- After the first stretch: the summed neighbour rows. -/
theorem rows_summed (c : Dev nD) :
    W1 m ρ c (Proc.devRef .tc main_v13) = Cert.ReferenceIdeal.Read.val_main_v13 (F := Ideal) (m ((c : Thread nD τ).loc main_arg0)) (m ((c : Thread nD τ).loc main_arg1)) := by
  show StableHlo.after hostOps0 (W0 m ρ c) (Proc.devRef .tc main_v13) = _
  after_results_simp <;> rfl

/-- After the first stretch: the in-degree, as a sum of ones by destination. -/
theorem degree_counted (c : Dev nD) :
    W1 m ρ c (Proc.devRef .tc main_v17) = Cert.ReferenceIdeal.Read.val_main_v17 (F := Ideal) (m ((c : Thread nD τ).loc main_arg1)) := by
  show StableHlo.after hostOps0 (W0 m ρ c) (Proc.devRef .tc main_v17) = _
  after_results_simp <;> rfl

/-- After the first stretch: the clip's lower bound, the constant one. -/
theorem one_set (c : Dev nD) : W1 m ρ c (Proc.devRef .tc main_cst_3) = Cert.ReferenceIdeal.Read.val_main_cst_3 (F := Ideal) := by
  show StableHlo.after hostOps0 (W0 m ρ c) (Proc.devRef .tc main_cst_3) = _
  after_results_simp <;> rfl

/-- The outlined clip: the maximum of the constant spread over the nodes and the in-degree, whatever the contents before. -/
theorem clip_read (c : Dev nD) :
    W2 m ρ c (Proc.devRef .tc main_v18)
      = maximumf (F := Ideal) (φ := .f32) (broadcastInDim S50000 ![] bcast_S_S50000 (id (W1 m ρ c (Proc.devRef .tc main_cst_3) : FVec Ideal S_ .f32)))
          (W1 m ρ c (Proc.devRef .tc main_v17) : FVec Ideal S50000 .f32) := by
  show StableHlo.after hostOps0_1 (W1 m ρ c) (Proc.devRef .tc main_v18) = _
  generalize W1 m ρ c = U
  after_results_simp
  simp only [Cert.LibTypedRefCasts.ofBuf_toBuf, Cert.LibTypedRefCasts.toBuf_ofBuf]
  rfl

/-- The clip does not touch the summed rows. -/
theorem rows_kept (c : Dev nD) : W2 m ρ c (Proc.devRef .tc main_v13) = W1 m ρ c (Proc.devRef .tc main_v13) := by
  show StableHlo.after hostOps0_1 (W1 m ρ c) (Proc.devRef .tc main_v13) = _
  generalize W1 m ρ c = U
  after_results_simp

/-- The last stretch before the region: the summed rows divided by the clipped in-degree spread over the features. -/
theorem mean_read (c : Dev nD) :
    W3 m ρ c (Proc.devRef .tc main_v21)
      = Host.divf (F := Ideal) (φ := .f32) (W2 m ρ c (Proc.devRef .tc main_v13) : FVec Ideal S50000x128 .f32)
          (broadcastInDim S50000x128 ![0, 1] bcast_S50000x1_S50000x128_0_1
            (broadcastInDim S50000x1 ![0] bcast_S50000_S50000x1_0 (W2 m ρ c (Proc.devRef .tc main_v18) : FVec Ideal S50000 .f32))) := by
  show StableHlo.after hostOps0_2 (W2 m ρ c) (Proc.devRef .tc main_v21) = _
  generalize W2 m ρ c = U
  after_results_simp <;> rfl

/-! ## Entering the first region -/

/-- The aggregated features the first region reads: the reference's first neighbour mean of the launch contents. -/
theorem first_mean (c : Dev nD) :
    V3 m ρ c main_v21 = Cert.ReferenceIdeal.Read.val_main_v21 (F := Ideal) (m ((c : Thread nD τ).loc main_arg0)) (m ((c : Thread nD τ).loc main_arg1)) := by
  show W3 m ρ c (Proc.devRef .tc main_v21) = _
  rw [mean_read m ρ c, rows_kept m ρ c, clip_read m ρ c, rows_summed m ρ c, degree_counted m ρ c, one_set m ρ c]
  rfl

/-- The nodes' own features are the first argument, untouched. -/
theorem first_own (c : Dev nD) : V3 m ρ c main_arg0 = (m ((c : Thread nD τ).loc main_arg0)) := by
  show StableHlo.after hostOps0_2 (StableHlo.after hostOps0_1 (StableHlo.after hostOps0 (W0 m ρ c))) (Proc.devRef .tc main_arg0) = _
  after_results_simp <;> rfl

/-- The left weights, transposed. -/
theorem first_wl (c : Dev nD) : V3 m ρ c main_v22 = Cert.ReferenceIdeal.Read.val_main_v22 (F := Ideal) (m ((c : Thread nD τ).loc main_arg2)) := by
  show StableHlo.after hostOps0_2 (StableHlo.after hostOps0_1 (StableHlo.after hostOps0 (W0 m ρ c))) (Proc.devRef .tc main_v22) = _
  after_results_simp <;> rfl

/-- The right weights, transposed. -/
theorem first_wr (c : Dev nD) : V3 m ρ c main_v23 = Cert.ReferenceIdeal.Read.val_main_v24 (F := Ideal) (m ((c : Thread nD τ).loc main_arg3)) := by
  show StableHlo.after hostOps0_2 (StableHlo.after hostOps0_1 (StableHlo.after hostOps0 (W0 m ρ c))) (Proc.devRef .tc main_v23) = _
  after_results_simp <;> rfl

/-- The first bias is the fifth argument, untouched. -/
theorem first_bias (c : Dev nD) : V3 m ρ c main_arg4 = (m ((c : Thread nD τ).loc main_arg4)) := by
  show StableHlo.after hostOps0_2 (StableHlo.after hostOps0_1 (StableHlo.after hostOps0 (W0 m ρ c))) (Proc.devRef .tc main_arg4) = _
  after_results_simp <;> rfl

/-! ## What the first region leaves alone

The first region writes only its result array, so the node lists the first stretch computed and the later arguments
are still there afterwards. -/

/-- The source-node list as the second stretches find it. -/
theorem src_kept (c : Dev nD) : W4 m ρ c (Proc.devRef .tc main_v1) = Cert.ReferenceIdeal.Read.val_main_v1 (F := Ideal) (m ((c : Thread nD τ).loc main_arg1)) := by
  rw [W4_of_ne m ρ c main_v1 (by decide)]
  show StableHlo.after hostOps0_2 (StableHlo.after hostOps0_1 (StableHlo.after hostOps0 (W0 m ρ c))) (Proc.devRef .tc main_v1) = _
  after_results_simp <;> rfl

/-- The destination-node list likewise. -/
theorem dst_kept (c : Dev nD) : W4 m ρ c (Proc.devRef .tc main_v3) = Cert.ReferenceIdeal.Read.val_main_v3 (F := Ideal) (m ((c : Thread nD τ).loc main_arg1)) := by
  rw [W4_of_ne m ρ c main_v3 (by decide)]
  show StableHlo.after hostOps0_2 (StableHlo.after hostOps0_1 (StableHlo.after hostOps0 (W0 m ρ c))) (Proc.devRef .tc main_v3) = _
  after_results_simp <;> rfl

/-- Argument 5 as the second stretches find it: the launch contents. -/
theorem arg5_kept (c : Dev nD) : W4 m ρ c (Proc.devRef .tc main_arg5) = (m ((c : Thread nD τ).loc main_arg5)) := by
  rw [W4_of_ne m ρ c main_arg5 (by decide)]
  show StableHlo.after hostOps0_2 (StableHlo.after hostOps0_1 (StableHlo.after hostOps0 (W0 m ρ c))) (Proc.devRef .tc main_arg5) = _
  after_results_simp <;> rfl

/-- Argument 6 as the second stretches find it: the launch contents. -/
theorem arg6_kept (c : Dev nD) : W4 m ρ c (Proc.devRef .tc main_arg6) = (m ((c : Thread nD τ).loc main_arg6)) := by
  rw [W4_of_ne m ρ c main_arg6 (by decide)]
  show StableHlo.after hostOps0_2 (StableHlo.after hostOps0_1 (StableHlo.after hostOps0 (W0 m ρ c))) (Proc.devRef .tc main_arg6) = _
  after_results_simp <;> rfl

/-- Argument 7 as the second stretches find it: the launch contents. -/
theorem arg7_kept (c : Dev nD) : W4 m ρ c (Proc.devRef .tc main_arg7) = (m ((c : Thread nD τ).loc main_arg7)) := by
  rw [W4_of_ne m ρ c main_arg7 (by decide)]
  show StableHlo.after hostOps0_2 (StableHlo.after hostOps0_1 (StableHlo.after hostOps0 (W0 m ρ c))) (Proc.devRef .tc main_arg7) = _
  after_results_simp <;> rfl

end Cert.KernelIdeal.Stretches

end
-- ==== Proof.KernelStretchesSecond.lean ====
/-
  The kernel's host operations between the two regions, read back at the buffers the second region takes.

  The program computes the neighbour mean of the first region's result array (the hidden table) — the same gather by
  source, sum by destination, count, clip, spread and divide as before, now over 256 features — and transposes the two
  second-layer weight matrices. The node lists are those the first stretch cut from the edge list, and the clip is again
  the same function of whatever contents precede it.
-/
import proofs.«101671_j37752762532479_1_alg».proof.Proof.Gen.KernelIdeal.Frame
import proofs.«101671_j37752762532479_1_alg».proof.Proof.ReferenceStages
import proofs.«101671_j37752762532479_1_alg».proof.Proof.LibTypedRefCasts
import proofs.«101671_j37752762532479_1_alg».proof.Proof.KernelStretches
import Idealize.ShloMosaic.Lib.StableHlo.Run

set_option maxRecDepth 16384
set_option Elab.async false

noncomputable section

namespace Cert.KernelIdeal.Stretches2

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

open Cert.KernelIdeal.Stretches

/-! ## The second neighbour mean, stretch by stretch -/

/-- After the stretch that follows the first region: the hidden table's neighbour rows, summed. -/
theorem rows_summed (c : Dev nD) :
    W5 m ρ c (Proc.devRef .tc main_v34)
      = Host.scatterAdd (F := Ideal) (φ := .f32) Cert.ReferenceIdeal.scatter_S50000x256_S800000x1_S800000x256_1_0_0_1 (Cert.ReferenceIdeal.Read.val_main_v38 (F := Ideal))
          (Cert.ReferenceIdeal.Read.val_main_v39 (F := Ideal) (m ((c : Thread nD τ).loc main_arg1)))
          (Host.gather Cert.ReferenceIdeal.gather_S50000x256_S800000x1_S800000x256_1_0_n_n_0_1_1256 (W4 m ρ c (Proc.devRef .tc main_v24) : FVec Ideal Cert.ReferenceIdeal.S50000x256 .f32)
            (Cert.ReferenceIdeal.Read.val_main_v36 (F := Ideal) (m ((c : Thread nD τ).loc main_arg1)))) := by
  show StableHlo.after hostOps1 (W4 m ρ c) (Proc.devRef .tc main_v34) = _
  after_results_simp
  rw [src_kept m ρ c, dst_kept m ρ c]
  rfl

/-- … the in-degree again. -/
theorem degree_counted (c : Dev nD) :
    W5 m ρ c (Proc.devRef .tc main_v38) = Cert.ReferenceIdeal.Read.val_main_v44 (F := Ideal) (m ((c : Thread nD τ).loc main_arg1)) := by
  show StableHlo.after hostOps1 (W4 m ρ c) (Proc.devRef .tc main_v38) = _
  after_results_simp
  rw [dst_kept m ρ c]
  rfl

/-- … and the clip's lower bound. -/
theorem one_set (c : Dev nD) : W5 m ρ c (Proc.devRef .tc main_cst_9) = Cert.ReferenceIdeal.Read.val_main_cst_9 (F := Ideal) := by
  show StableHlo.after hostOps1 (W4 m ρ c) (Proc.devRef .tc main_cst_9) = _
  after_results_simp <;> rfl

/-- The outlined clip, whatever the contents before. -/
theorem clip_read (c : Dev nD) :
    W6 m ρ c (Proc.devRef .tc main_v39)
      = maximumf (F := Ideal) (φ := .f32) (broadcastInDim S50000 ![] bcast_S_S50000 (id (W5 m ρ c (Proc.devRef .tc main_cst_9) : FVec Ideal S_ .f32)))
          (W5 m ρ c (Proc.devRef .tc main_v38) : FVec Ideal S50000 .f32) := by
  show StableHlo.after hostOps1_1 (W5 m ρ c) (Proc.devRef .tc main_v39) = _
  generalize W5 m ρ c = U
  after_results_simp
  simp only [Cert.LibTypedRefCasts.ofBuf_toBuf, Cert.LibTypedRefCasts.toBuf_ofBuf]
  rfl

/-- The clip does not touch the summed rows. -/
theorem rows_kept (c : Dev nD) : W6 m ρ c (Proc.devRef .tc main_v34) = W5 m ρ c (Proc.devRef .tc main_v34) := by
  show StableHlo.after hostOps1_1 (W5 m ρ c) (Proc.devRef .tc main_v34) = _
  generalize W5 m ρ c = U
  after_results_simp

/-- The last stretch before the second region: the division. -/
theorem mean_read (c : Dev nD) :
    W7 m ρ c (Proc.devRef .tc main_v42)
      = Host.divf (F := Ideal) (φ := .f32) (W6 m ρ c (Proc.devRef .tc main_v34) : FVec Ideal S50000x256 .f32)
          (broadcastInDim S50000x256 ![0, 1] bcast_S50000x1_S50000x256_0_1
            (broadcastInDim S50000x1 ![0] bcast_S50000_S50000x1_0 (W6 m ρ c (Proc.devRef .tc main_v39) : FVec Ideal S50000 .f32))) := by
  show StableHlo.after hostOps1_2 (W6 m ρ c) (Proc.devRef .tc main_v42) = _
  generalize W6 m ρ c = U
  after_results_simp <;> rfl

/-! ## Entering the second region -/

/-- The aggregated features the second region reads: the neighbour mean of the first region's result array. -/
theorem second_mean (c : Dev nD) :
    V7 m ρ c main_v42 = Cert.Sage.mean256 (F := Ideal) (W4 m ρ c (Proc.devRef .tc main_v24)) (m ((c : Thread nD τ).loc main_arg1)) := by
  show W7 m ρ c (Proc.devRef .tc main_v42) = _
  rw [mean_read m ρ c, rows_kept m ρ c, clip_read m ρ c, rows_summed m ρ c, degree_counted m ρ c, one_set m ρ c]
  rfl

/-- The second region's own-features operand is the first region's result array. -/
theorem second_own (c : Dev nD) : V7 m ρ c main_v24 = W4 m ρ c (Proc.devRef .tc main_v24) := by
  show StableHlo.after hostOps1_2 (StableHlo.after hostOps1_1 (StableHlo.after hostOps1 (W4 m ρ c))) (Proc.devRef .tc main_v24) = _
  after_results_simp

/-- The second layer's left weights, transposed. -/
theorem second_wl (c : Dev nD) : V7 m ρ c main_v43 = Cert.ReferenceIdeal.Read.val_main_v49 (F := Ideal) (m ((c : Thread nD τ).loc main_arg5)) := by
  show StableHlo.after hostOps1_2 (StableHlo.after hostOps1_1 (StableHlo.after hostOps1 (W4 m ρ c))) (Proc.devRef .tc main_v43) = _
  after_results_simp
  rw [arg5_kept m ρ c]
  rfl

/-- The second layer's right weights, transposed. -/
theorem second_wr (c : Dev nD) : V7 m ρ c main_v44 = Cert.ReferenceIdeal.Read.val_main_v51 (F := Ideal) (m ((c : Thread nD τ).loc main_arg6)) := by
  show StableHlo.after hostOps1_2 (StableHlo.after hostOps1_1 (StableHlo.after hostOps1 (W4 m ρ c))) (Proc.devRef .tc main_v44) = _
  after_results_simp
  rw [arg6_kept m ρ c]
  rfl

/-- The second bias. -/
theorem second_bias (c : Dev nD) : V7 m ρ c main_arg7 = (m ((c : Thread nD τ).loc main_arg7)) := by
  show StableHlo.after hostOps1_2 (StableHlo.after hostOps1_1 (StableHlo.after hostOps1 (W4 m ρ c))) (Proc.devRef .tc main_arg7) = _
  after_results_simp
  exact arg7_kept m ρ c

end Cert.KernelIdeal.Stretches2

end
-- ==== Proof.KernelValue.lean ====
/-
  The kernel's result as the network's function of its arguments.

  The first region leaves, in its result array, the first stage of what its windows held on entry; the second region
  leaves the second stage of what ITS windows held, among them the first region's result array and its neighbour mean.
  With the host stretches read back, the result buffer after the whole run is the network of the launch contents of the
  eight arguments — the same function the reference computes.
-/
import proofs.«101671_j37752762532479_1_alg».proof.Proof.KernelWholeRun
import proofs.«101671_j37752762532479_1_alg».proof.Proof.KernelHiddenTiles
import proofs.«101671_j37752762532479_1_alg».proof.Proof.KernelOutputTiles
import proofs.«101671_j37752762532479_1_alg».proof.Proof.KernelStretches
import proofs.«101671_j37752762532479_1_alg».proof.Proof.KernelStretchesSecond

set_option maxRecDepth 16384

noncomputable section

namespace Cert.KernelIdeal.Whole

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The hidden table, as the first region leaves it: the first stage of the first neighbour mean, the input features,
    the transposed first-layer weights and the first bias. -/
theorem hidden_value (c : Dev nD) :
    W4 m ρ c (Proc.devRef .tc main_v24)
      = Cert.Sage.hidden (Cert.ReferenceIdeal.Read.val_main_v21 (F := Ideal) (m ((c : Thread nD τ).loc main_arg0)) (m ((c : Thread nD τ).loc main_arg1))) (m ((c : Thread nD τ).loc main_arg0))
          (Cert.ReferenceIdeal.Read.val_main_v22 (F := Ideal) (m ((c : Thread nD τ).loc main_arg2))) (Cert.ReferenceIdeal.Read.val_main_v24 (F := Ideal) (m ((c : Thread nD τ).loc main_arg3))) (m ((c : Thread nD τ).loc main_arg4)) :=
  (W4_arr m ρ c 5).trans <| (Tiles0.array (V3 m ρ) c).trans <| by
    rw [Stretches.first_mean m ρ c, Stretches.first_own m ρ c, Stretches.first_wl m ρ c, Stretches.first_wr m ρ c, Stretches.first_bias m ρ c]

/-- THE RESULT BUFFER after the run: the network of the arguments' launch contents. -/
theorem result_value (c : Dev nD) :
    W8 m ρ c (Proc.devRef .tc main_v45) = Cert.Sage.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 5).trans <| (Tiles1.array (V7 m ρ) c).trans <| by
    rw [Stretches2.second_mean m ρ c, Stretches2.second_own m ρ c, Stretches2.second_wl m ρ c, Stretches2.second_wr m ρ c, Stretches2.second_bias m ρ c, hidden_value m ρ c]
    rfl

/-- The kernel's run: every weakly fair execution terminates without a fault, the result is the network of the
    arguments, and the arguments end as launched. -/
theorem run : θ_run defs (onTc (τ := τ) (main (F := Ideal))) ⟨m, fun _ => 0, ρ⟩ (fun r => ∀ c : Dev nD,
      r.2.mem ((c.tc : Thread nD τ).loc main_v45) = Cert.Sage.network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (run_result m ρ)

end Cert.KernelIdeal.Whole

end
-- ==== Proof.lean ====
/-
  A two-layer graph network with mean aggregation, as a row-tiled kernel against its plain reference.

  Both programs compute, for 50000 nodes with 128 input features and an edge list of 800000 (source, destination) pairs,
      h   = max (mean₁(x) · W_l1ᵀ + x · W_r1ᵀ + b1) 0          (256 hidden features)
      out = mean₂(h) · W_l2ᵀ + h · W_r2ᵀ + b2                   (128 output features)
  where mean(t) at a node is the sum of t's rows over the node's in-edges divided by the in-degree clipped below at 1.
  The neighbour means are host operations in both programs, the same operations in the same order, so they enter both
  sides as one function applied to equal arguments. The kernel computes each linear stage in 25 blocks of 2000 rows, each block two
  matrix products accumulated into zero after a rounding to a 16-bit format; on the extended reals the rounding is the
  identity, a product into zero is the plain sum over the shared feature axis, and the blocks tile the rows, so each
  region's result array is the whole-array stage and the kernel's result is the same function of the arguments as the
  reference's. No finiteness of the inputs is used: the two sides agree term by term, with the same grouping of sums.

  The idealization rewrote nothing, so the kernel and its idealized reading are one text; the three programs' frames
  are the generated frame runs (the reference's is its run with the result dropped).
-/
import proofs.«101671_j37752762532479_1_alg».proof.Defs
import proofs.«101671_j37752762532479_1_alg».proof.Proof.Gen.Kernel
import proofs.«101671_j37752762532479_1_alg».proof.Proof.Gen.Kernel.Frame
import proofs.«101671_j37752762532479_1_alg».proof.Proof.Gen.KernelIdeal
import proofs.«101671_j37752762532479_1_alg».proof.Proof.Gen.KernelIdeal.Frame
import proofs.«101671_j37752762532479_1_alg».proof.Proof.Gen.ReferenceIdeal
import proofs.«101671_j37752762532479_1_alg».proof.Proof.Gen.ReferenceIdeal.Run
import proofs.«101671_j37752762532479_1_alg».proof.Proof.Gen.ReferenceIdeal.Read
import proofs.«101671_j37752762532479_1_alg».proof.Proof.Gen.Pre_finite_inputs
import proofs.«101671_j37752762532479_1_alg».proof.Proof.ReferenceStages
import proofs.«101671_j37752762532479_1_alg».proof.Proof.KernelValue

noncomputable section

namespace Cert.Proof

open Idealize.ShloMosaic Idealize.SL.Sem

/-- The kernel as printed runs and leaves its arguments unchanged. -/
theorem frame_kernel : @Cert.frame_Kernel Cert.Kernel.Gen.facts Cert.Pre_finite_inputs.Gen.facts :=
  fun m ρ _ => Cert.Kernel.Gen.frame m ρ

/-- So does its idealized reading. -/
theorem frame_kernel_ideal : @Cert.frame_KernelIdeal Cert.KernelIdeal.Gen.facts Cert.Pre_finite_inputs.Gen.facts :=
  fun m ρ _ => Cert.KernelIdeal.Gen.frame m ρ

/-- The reference is host operations only: its frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories that agree on the eight arguments, both programs end with the network of those arguments in their
    result buffer. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Sage.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Whole.run m ρ, ?_⟩
  refine (θ_run Cert.ReferenceIdeal.defs _ _).mono (fun _ h c => ⟨(h c).1.trans ?_, (h c).2⟩) (Cert.ReferenceIdeal.Value.run (F := Ideal) m' ρ')
  obtain ⟨h0, h1, h2, h3, h4, h5, h6, h7⟩ := hagree c
  rw [Cert.ReferenceIdeal.Read.val_main_v56_eq, Cert.Sage.reference_is_network, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
